-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What each case of the body leaves behind, as plain values of what it loaded.

  The body keeps a running [1024, 1024] accumulator between grid points. Whatever the case, it replaces the accumulator
  `acc` by `acc + X · Wᵀ` of the two input blocks it is handed (the payload `k0_pay2 X W acc`); at the first point of a
  run `acc` is the zero block it has just stored (`k0_pay1`), and at the last point of a run it also stores
  `accumulator + bias row` (the payload `k0_pay3`) into the output block. Each statement below reads the stores the run
  of one case found (one covering store per buffer, a load after a store reading the stored value back) as that value.
-/
import proofs.«159440_j21251498180726_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every load and store of the body: the origin of the block. -/
theorem hz : (![0, 0] : Fin 2 → Nat) = fun _ => 0 := funext fun a => by fin_cases a <;> rfl

/-- A middle point of a run: the accumulator `acc` becomes `acc + X · Wᵀ`. -/
theorem acc_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- The last point of a run: the accumulator becomes `acc + X · Wᵀ` as at any other point, -/
theorem acc_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output block is stored: the new accumulator plus the bias row, broadcast down the rows. -/
theorem out_C (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

/-- The first point of a run: the accumulator is reset to the zero block and then becomes `0 + X · Wᵀ`. -/
theorem acc_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces

end
-- ==== Proof.Payload.lean ====
/-
  The body's three stored values, read at one entry, on the extended reals.

  With X, W the two [1024, 1024] input blocks and acc the accumulator: the reset stores 0 everywhere; the accumulation
  stores acc[p, q] + Σ_k X[p, k] · W[q, k] (the matrix unit contracts the LAST axis of both blocks, the narrowing of the
  blocks to bf16 before it is the identity on exact values, and its own accumulator is the zero block); the epilogue
  stores acc[p, q] + bias[0, q].
-/
import proofs.«159440_j21251498180726_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The reset block is zero at every entry. -/
theorem zero_apply (j : S1024x1024.Idx) : k0_pay1 (F := Ideal) j = 0 := by
  unfold k0_pay1
  rw [shapeCast_self]
  show Ideal.ofBits .f32 0x00000000#32 = 0
  exact Ideal.ofBits_zero_f32

/-- The matrix unit's left operand at output entry `j` and contracted position `k`: row `j 0`, -/
theorem lhs_row (j : S1024x1024.Idx) (k : dot_S1024x1024_S1024x1024_S1024x1024_1_1_0_0_n_n.contr.Idx) : (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- column `k`; -/
theorem lhs_col (j : S1024x1024.Idx) (k : dot_S1024x1024_S1024x1024_S1024x1024_1_1_0_0_n_n.contr.Idx) : (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- its right operand there: row `j 1`, -/
theorem rhs_row (j : S1024x1024.Idx) (k : dot_S1024x1024_S1024x1024_S1024x1024_1_1_0_0_n_n.contr.Idx) : (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- column `k`. -/
theorem rhs_col (j : S1024x1024.Idx) (k : dot_S1024x1024_S1024x1024_S1024x1024_1_1_0_0_n_n.contr.Idx) : (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The accumulation at entry (p, q): the old accumulator there plus the row of `x0` against the row of `x1`. -/
theorem acc_apply (x0 x1 acc : Vec Ideal S1024x1024 .f32) (p q : Fin 1024) :
    k0_pay2 (F := Ideal) x0 x1 acc (ix2 p q) = acc (ix2 p q) + ∑ kk : Fin 1024, x0 (ix2 p kk) * x1 (ix2 q kk) := by
  unfold k0_pay2
  rw [shapeCast_self]
  show acc (ix2 p q) + FloatOps.matmul (F := Ideal) dot_S1024x1024_S1024x1024_S1024x1024_1_1_0_0_n_n none (truncf (F := Ideal) .bf16 x0 bitsLt_bf16_f32)
    (truncf (F := Ideal) .bf16 x1 bitsLt_bf16_f32) (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun kk _ => ?_)
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact rhs_row _ _
    | ⟨1, _⟩ => exact (rhs_col _ _).trans hk)
  rw [el, er]
  rfl

/-- The epilogue at entry (p, q): the accumulator there plus the bias row's entry q. -/
theorem out_apply (a : Vec Ideal S1024x1024 .f32) (r : Vec Ideal S1x1024 .f32) (p q : Fin 1024) :
    k0_pay3 (F := Ideal) a r (ix2 p q) = a (ix2 p q) + r (ix2 (0 : Fin 1) q) := by
  unfold k0_pay3
  rw [shapeCast_self]
  show a (ix2 p q) + broadcastTo S1024x1024 r broadcasts_S1x1024_S1024x1024 (ix2 p q) = _
  rw [broadcastTo_apply r broadcasts_S1x1024_S1024x1024 (ix2 p q) (ix2 (0 : Fin 1) q) (fun a => by
    match a with
    | ⟨0, _⟩ => show (0 : ℕ) = if (1 : ℕ) = 1 then 0 else p.val; rw [if_pos rfl]
    | ⟨1, _⟩ => show q.val = if (1024 : ℕ) = 1 then 0 else q.val; rw [if_neg (by decide)])]

end Cert.KernelIdeal.Payload

end
-- ==== Proof.Spec.lean ====
/-
  The result both programs compute, as one function of the argument arrays, and the one law that joins their two
  arrangements of it.

  Entry (r, c) of the [4096, 4096] result is the sum over the 4096 contracted positions k of x[r, k] · W[c, k], plus
  b[c], on the extended reals (`lin`). The kernel cuts the contracted axis into four runs of 1024 and visits one run per
  grid point: at point n it handles rows 1024·(n / 16) …, columns 1024·(n / 4 mod 4) …, contracted positions
  1024·(n mod 4) … (`blockProd`). Adding the four runs' partial sums to zero and then the bias gives `lin`
  (`lin_blocks`): only associativity and commutativity of + are used, so no entry needs to be finite.
-/
import Idealize.ShloMosaic.PureOps.Ideal
import Idealize.ShloMosaic.Lib.ValueIdx
import Mathlib.Algebra.BigOperators.Fin
import Mathlib.Logic.Equiv.Fin.Basic

noncomputable section

namespace Cert.Linear

open Idealize.ShloMosaic Idealize.ShloMosaic.ValueIdx

/-- Position `p` of the `r`-th run of 1024 on an axis of 4096 (`r` is taken mod 4, so that every natural is a run). -/
abbrev at1024 (r : ℕ) (p : Fin 1024) : Fin 4096 := ⟨1024 * (r % 4) + p.val, by have := p.isLt; omega⟩

/-- The result at row `r`, column `c`: x[r, :] · W[c, :] + b[c]. -/
def lin (x W : (⟨2, ![4096, 4096]⟩ : Shape).Idx → EReal) (b : (⟨1, ![4096]⟩ : Shape).Idx → EReal) (r c : Fin 4096) : EReal :=
  (∑ k : Fin 4096, x (ix2 r k) * W (ix2 c k)) + b (ix1 c)

/-- What grid point `n` adds to entry (p, q) of its accumulator: the partial sum over the point's run of 1024
    contracted positions, of the point's rows of `x` against the point's rows of `W`. -/
def blockProd (x W : (⟨2, ![4096, 4096]⟩ : Shape).Idx → EReal) (n : ℕ) (p q : Fin 1024) : EReal :=
  ∑ kk : Fin 1024, x (ix2 (at1024 (n / 16) p) (at1024 n kk)) * W (ix2 (at1024 (n / 4) q) (at1024 n kk))

/-- A sum over 4096 positions is the sum over four runs of 1024 positions each. -/
theorem sum_runs {M : Type*} [AddCommMonoid M] (f : Fin 4096 → M) :
    ∑ k : Fin 4096, f k = ∑ s : Fin 4, ∑ kk : Fin 1024, f ⟨1024 * s.val + kk.val, by have := s.isLt; have := kk.isLt; omega⟩ := by
  rw [← Equiv.sum_comp (finProdFinEquiv : Fin 4 × Fin 1024 ≃ Fin 4096) f, Fintype.sum_prod_type]
  refine Finset.sum_congr rfl fun s _ => Finset.sum_congr rfl fun kk _ => congrArg f (Fin.ext ?_)
  show kk.val + 1024 * s.val = 1024 * s.val + kk.val
  omega

/-- THE LAW. The four points 4u, 4u + 1, 4u + 2, 4u + 3 of one run share their rows and columns and split the contracted
    axis between them: zero plus their four partial sums, plus the bias, is the whole entry. -/
theorem lin_blocks (x W : (⟨2, ![4096, 4096]⟩ : Shape).Idx → EReal) (b : (⟨1, ![4096]⟩ : Shape).Idx → EReal)
    (u : ℕ) (p q : Fin 1024) :
    (0 + ∑ s ∈ Finset.range 4, blockProd x W (4 * u + s) p q) + b (ix1 (at1024 u q))
      = lin x W b (at1024 (u / 4) p) (at1024 u q) := by
  unfold lin
  rw [zero_add, sum_runs, Finset.sum_range]
  refine congrArg (· + b (ix1 (at1024 u q))) (Finset.sum_congr rfl fun s _ => ?_)
  unfold blockProd
  refine Finset.sum_congr rfl fun kk _ => ?_
  have hs := s.isLt
  have hk := kk.isLt
  have e1 : at1024 ((4 * u + s.val) / 16) p = at1024 (u / 4) p :=
    Fin.ext (by show 1024 * ((4 * u + s.val) / 16 % 4) + p.val = 1024 * (u / 4 % 4) + p.val; omega)
  have e2 : at1024 (4 * u + s.val) kk = ⟨1024 * s.val + kk.val, by omega⟩ :=
    Fin.ext (by show 1024 * ((4 * u + s.val) % 4) + kk.val = 1024 * s.val + kk.val; omega)
  have e3 : at1024 ((4 * u + s.val) / 4) q = at1024 u q :=
    Fin.ext (by show 1024 * ((4 * u + s.val) / 4 % 4) + q.val = 1024 * (u % 4) + q.val; omega)
  rw [e1, e2, e3]

end Cert.Linear

end
-- ==== Proof.Blocks.lean ====
/-
  What the kernel's windows hand the body at grid point t, as entries of the argument arrays.

  The grid is 4 × 4 × 4, point t = 16·i + 4·j + k. The block of x at t is rows 1024·i …, contracted positions 1024·k …;
  the block of W is rows 1024·j …, contracted positions 1024·k …; the block of the bias row is positions 1024·j … of b
  laid out as one row (the reshape of b to [1, 4096] keeps the row-major position, so row 0, column n is b[n]); the
  output block is rows 1024·i …, columns 1024·j …. A block's coordinate in its array is always block index × block size
  + the coordinate inside the block, and the block indices are decided once over the 64 grid points.
-/
import proofs.«159440_j21251498180726_2_alg».proof.Proof.Gen.KernelIdeal.Frame
import proofs.«159440_j21251498180726_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.Linear

variable {F : FTy → Type} [FloatOps F]
variable (m : (ℓ : Loc nD τ sig) → Buf (Elt F) ℓ)

/-- The block indices of the x window at point t: (i, k). -/
theorem index_x : ∀ t : Fin cfg0.N, win0_0.index t 0 = t.val / 16 % 4 ∧ win0_0.index t 1 = t.val % 4 :=
  (by decide +kernel : ∀ t : Fin grid0.N, win0_0.index t 0 = t.val / 16 % 4 ∧ win0_0.index t 1 = t.val % 4)
/-- Of the W window: (j, k). -/
theorem index_w : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
/-- Of the bias window: (0, j). -/
theorem index_b : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
/-- Of the output window: (i, j). -/
theorem index_o : ∀ t : Fin cfg0.N, win0_3.index t 0 = t.val / 16 % 4 ∧ win0_3.index t 1 = t.val / 4 % 4 :=
  (by decide +kernel : ∀ t : Fin grid0.N, win0_3.index t 0 = t.val / 16 % 4 ∧ win0_3.index t 1 = t.val / 4 % 4)

/-- Entry (p, kk) of the x block at t is x[1024·i + p, 1024·k + kk]. -/
theorem x_block (c : Dev nD) (t : Fin cfg0.N) (p kk : Fin 1024) :
    (iblk m c 0 t : Vec F S1024x1024 .f32) (ix2 p kk)
      = m ((c : Thread nD τ).loc main_arg0) (ix2 (at1024 (t.val / 16) p) (at1024 t.val kk)) := by
  have hi := index_x t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = 1024 * (t.val / 16 % 4) + p.val; rw [hi.1]; omega
  | ⟨1, _⟩ => show win0_0.index t 1 * 1024 + 1 * kk.val = 1024 * (t.val % 4) + kk.val; rw [hi.2]; omega

/-- Entry (q, kk) of the W block at t is W[1024·j + q, 1024·k + kk]. -/
theorem w_block (c : Dev nD) (t : Fin cfg0.N) (q kk : Fin 1024) :
    (iblk m c 1 t : Vec F S1024x1024 .f32) (ix2 q kk)
      = m ((c : Thread nD τ).loc main_arg1) (ix2 (at1024 (t.val / 4) q) (at1024 t.val kk)) := by
  have hi := index_w t
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = 1024 * (t.val / 4 % 4) + q.val; rw [hi.1]; omega
  | ⟨1, _⟩ => show win0_1.index t 1 * 1024 + 1 * kk.val = 1024 * (t.val % 4) + kk.val; rw [hi.2]; omega

/-- The [1, 4096] array the bias window reads is b reshaped: the region finds it so. -/
theorem bias_row (c : Dev nD) :
    (V m c main_v0 : S1x4096.Idx → Elt F .f32) = shapeCast S1x4096 (m ((c : Thread nD τ).loc main_arg2)) shapeCasts_S4096_S1x4096 := by
  dsimp only [Gen.V, Gen.hostOps0]
  after_results
  rfl

/-- Entry (0, q) of the bias block at t is b[1024·j + q]. -/
theorem b_block (c : Dev nD) (t : Fin cfg0.N) (q : Fin 1024) :
    (iblk m c 2 t : Vec F S1x1024 .f32) (ix2 (0 : Fin 1) q)
      = m ((c : Thread nD τ).loc main_arg2) (ix1 (at1024 (t.val / 4) q)) := by
  have hi := index_b t
  unfold iblk
  rw [View.read_apply]
  show V m c main_v0 _ = m (c.tc.loc main_arg2) _
  rw [bias_row]
  refine shapeCast_apply _ shapeCasts_S4096_S1x4096 _ _ ?_
  rw [Shape.rowMajor_val_one, Shape.rowMajor_val_two]
  show 1024 * (t.val / 4 % 4) + q.val = (win0_2.index t 0 * 1 + 1 * 0) * 4096 + (win0_2.index t 1 * 1024 + 1 * q.val)
  rw [hi.1, hi.2]; omega

end Cert.KernelIdeal.Blocks

end
-- ==== Proof.Fold.lean ====
/-
  The accumulator after any grid point, and the output block at the last point of a run, as sums.

  Points 4u, 4u + 1, 4u + 2, 4u + 3 form one run: they share their output block, the first resets the accumulator, every
  one adds its own partial product (`Linear.blockProd`), and the last stores accumulator + bias row. So after point t the
  accumulator's entry (p, q) is 0 plus the partial products of the points 4·(t / 4) … t of t's run (`acc_after`: the
  generated fold of the accumulator, each step read as "previous + this point's partial product"), and at a last point
  the stored entry is the whole dot product plus the bias entry (`out_entry`, by `Linear.lin_blocks`).
-/
import proofs.«159440_j21251498180726_2_alg».proof.Proof.Gen.KernelIdeal.Value
import proofs.«159440_j21251498180726_2_alg».proof.Proof.Pieces
import proofs.«159440_j21251498180726_2_alg».proof.Proof.Payload
import proofs.«159440_j21251498180726_2_alg».proof.Proof.Blocks

noncomputable section

open Idealize.ShloMosaic Idealize.ShloMosaic.TcCoe Idealize.SL.Sem Idealize.ShloMosaic.ValueIdx

namespace Cert.KernelIdeal.Fold

open Cert.KernelIdeal Cert.KernelIdeal.Gen Cert.Linear

variable (m : (ℓ : Loc nD τ sig) → Buf (Elt Ideal) ℓ)

/-- The three argument arrays on core `c`, as launched. -/
abbrev X (c : Dev nD) : S4096x4096.Idx → EReal := m ((c : Thread nD τ).loc main_arg0)
abbrev W (c : Dev nD) : S4096x4096.Idx → EReal := m ((c : Thread nD τ).loc main_arg1)
abbrev B (c : Dev nD) : S4096.Idx → EReal := m ((c : Thread nD τ).loc main_arg2)

/-- What point `n` adds to the accumulator, entry by entry. -/
abbrev addend (c : Dev nD) (n : ℕ) (j : S1024x1024.Idx) : EReal := blockProd (X m c) (W m c) n (j 0) (j 1)

/-- The accumulation over the blocks of point `t`: the old accumulator plus the point's partial product. -/
theorem accumulate (c : Dev nD) (t : Fin cfg0.N) (acc : Vec Ideal S1024x1024 .f32) (p q : Fin 1024) :
    k0_pay2 (F := Ideal) (iblk m c 0 t) (iblk m c 1 t) acc (ix2 p q) = acc (ix2 p q) + blockProd (X m c) (W m c) t.val p q := by
  refine (Payload.acc_apply (iblk m c 0 t) (iblk m c 1 t) acc p q).trans ?_
  unfold blockProd
  refine congrArg (acc (ix2 p q) + ·) (Finset.sum_congr rfl fun kk _ => ?_)
  rw [Blocks.x_block m c t p kk, Blocks.w_block m c t q kk]

/-- The first point of a run leaves 0 + its partial product, whatever the accumulator held. -/
theorem reset_entry (c : Dev nD) (n : ℕ) (hb : n < cfg0.N) (h0 : n % 4 = 0) (acc : Vec Ideal S1024x1024 .f32) (j : S1024x1024.Idx) :
    Value.scAt0_0 m c n hb acc j = 0 + addend m c n j := by
  obtain ⟨p, q, rfl⟩ : ∃ (p q : Fin 1024), j = ix2 p q := ⟨j 0, j 1, eq_ix2 j⟩
  have h1 : ¬n % 4 = 3 := by omega
  unfold Value.scAt0_0
  rw [dif_pos h0, dif_neg h1, Pieces.acc_A]
  refine (accumulate m c ⟨n, hb⟩ _ p q).trans ?_
  rw [Payload.zero_apply]

/-- Every later point of the run leaves the accumulator plus its partial product. -/
theorem step_entry (c : Dev nD) (n : ℕ) (hb : n < cfg0.N) (h0 : ¬n % 4 = 0) (acc : Vec Ideal S1024x1024 .f32) (j : S1024x1024.Idx) :
    Value.scAt0_0 m c n hb acc j = acc j + addend m c n j := by
  obtain ⟨p, q, rfl⟩ : ∃ (p q : Fin 1024), j = ix2 p q := ⟨j 0, j 1, eq_ix2 j⟩
  unfold Value.scAt0_0
  rw [dif_neg h0]
  by_cases h1 : n % 4 = 3
  · rw [dif_pos h1, Pieces.acc_C]
    exact accumulate m c ⟨n, hb⟩ acc p q
  · rw [dif_neg h1, Pieces.acc_B]
    exact accumulate m c ⟨n, hb⟩ acc p q

/-- THE ACCUMULATOR after point `t`: zero plus the partial products of the points of t's run up to t. -/
theorem acc_after (c : Dev nD) (t : Fin cfg0.N) (j : S1024x1024.Idx) :
    (outsAt0 m c t.val t.isLt).2 j = 0 + ∑ s ∈ Finset.range (t.val % 4 + 1), addend m c (4 * (t.val / 4) + s) j := by
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (addend m c)
    (4 * (t.val / 4)) 3
    (fun h i => reset_entry m c _ h (by omega) _ i)
    (fun n h acc i hlt hle => step_entry m c n h (by omega) acc i)
    (t.val % 4) (by omega) _ j

/-- THE STORED ENTRY at the last point of a run: the whole row of x against the whole row of W, plus the bias entry. -/
theorem out_entry (c : Dev nD) (t : Fin cfg0.N) (h3 : t.val % 4 = 3) (p q : Fin 1024) :
    (outsAt0 m c t.val t.isLt).1 (ix2 p q) = lin (X m c) (W m c) (B m c) (at1024 (t.val / 16) p) (at1024 (t.val / 4) q) := by
  have h0 : ¬t.val % 4 = 0 := by omega
  have hacc := acc_after m c t (ix2 p q)
  rw [outsAt0_C m c t h0 h3] at hacc ⊢
  dsimp only at hacc ⊢
  rw [Pieces.acc_C] at hacc
  rw [Pieces.out_C]
  refine (Payload.out_apply _ (iblk m c 2 t) p q).trans ?_
  rw [hacc, Blocks.b_block m c t q, h3]
  have e : at1024 (t.val / 16) p = at1024 (t.val / 4 / 4) p :=
    Fin.ext (by show 1024 * (t.val / 16 % 4) + p.val = 1024 * (t.val / 4 / 4 % 4) + p.val; omega)
  rw [e]
  exact lin_blocks (X m c) (W m c) (B m c) (t.val / 4) p q

end Cert.KernelIdeal.Fold

end
-- ==== Proof.Whole.lean ====
/-
  The kernel's result array after the run is `Linear.lin` of its three arguments.

  Only the last point of each run writes the output block back (t mod 4 = 3). What it writes is, entry by entry, the block
  of `lin` at rows 1024·i …, columns 1024·j … (`Fold.out_entry`, with the block's place in the array). Entry (r, c) of
  the array lies in the block written by the point 16·(r / 1024) + 4·(c / 1024) + 3, so the sixteen written blocks cover
  the array, and the array ends holding `lin` everywhere.
-/
import proofs.«159440_j21251498180726_2_alg».proof.Proof.Gen.KernelIdeal.Value
import proofs.«159440_j21251498180726_2_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Linear

variable (m : (ℓ : Loc nD τ sig) → Buf (Elt Ideal) ℓ) (ρ : Dev nD → PrngReg)

/-- The result array on core `c`: `lin` of the arguments as launched. -/
abbrev result (c : Dev nD) : Buf (Elt Ideal) ((c : Thread nD τ).loc main_v1) :=
  fun i : S4096x4096.Idx => lin (Fold.X m c) (Fold.W m c) (Fold.B m c) (i 0) (i 1)

/-- What a last point of a run writes back is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hi := Blocks.index_o t
  rw [Value.flushed3]
  show (fun j : S1024x1024.Idx => (outsAt0 m c t.val t.isLt).1 j)
    = fun j : S1024x1024.Idx => result m c (((cfg0.win 3).blk t).view.emb j)
  funext j
  obtain ⟨p, q, rfl⟩ : ∃ (p q : Fin 1024), j = ix2 p q := ⟨j 0, j 1, eq_ix2 j⟩
  rw [Fold.out_entry m c t h3 p q]
  show lin _ _ _ _ _ = lin _ _ _ ((((cfg0.win 3).blk t).view.emb (ix2 p q)) 0) ((((cfg0.win 3).blk t).view.emb (ix2 p q)) 1)
  congr 1 <;> apply Fin.ext
  · show 1024 * (t.val / 16 % 4) + p.val = win0_3.index t 0 * 1024 + 1 * p.val
    rw [hi.1]; omega
  · show 1024 * (t.val / 4 % 4) + q.val = win0_3.index t 1 * 1024 + 1 * q.val
    rw [hi.2]; omega

/-- An entry of the array is in point t's output block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the array is in the block some last point writes back. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  have hlt : 16 * ((i 0).val / 1024) + 4 * ((i 1).val / 1024) + 3 < cfg0.N := by rw [hN]; omega
  refine ⟨⟨16 * ((i 0).val / 1024) + 4 * ((i 1).val / 1024) + 3, hlt⟩, (flush0_3 _).mpr (by dsimp only; omega), ?_⟩
  rw [mem_blk]
  obtain ⟨e0, e1⟩ := Blocks.index_o ⟨16 * ((i 0).val / 1024) + 4 * ((i 1).val / 1024) + 3, hlt⟩
  dsimp only at e0 e1
  intro a
  match a with
  | ⟨0, _⟩ =>
    show win0_3.index _ 0 * 1024 ≤ (i 0).val ∧ (i 0).val < win0_3.index _ 0 * 1024 + 1024
    rw [e0]; omega
  | ⟨1, _⟩ =>
    show win0_3.index _ 1 * 1024 ≤ (i 1).val ∧ (i 1).val < win0_3.index _ 1 * 1024 + 1024
    rw [e1]; omega

/-- So the result array ends holding `result`. -/
theorem final (c : Dev nD) : (dats m 0 c).arrAt 3 cfg0.N = result m c :=
  (dats m 0 c).arrAt_eq_of_cover 3 (result m c) (fun t hf => flushed_eq m c t hf) cover

/-- The run, read: the result array at `lin` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference computes `Linear.lin`.

  Its five operations are: W transposed; the whole matrix product of x with that transpose, contracting x's last axis with
  the transpose's first; b laid out as a row and repeated down the rows; the sum of the two. Read at entry (r, c): the
  product is Σ_k x[r, k] · Wᵀ[k, c] = Σ_k x[r, k] · W[c, k], and the repeated row is b[c].
-/
import proofs.«159440_j21251498180726_2_alg».proof.Proof.Gen.ReferenceIdeal.Read
import proofs.«159440_j21251498180726_2_alg».proof.Proof.Spec

noncomputable section

open Idealize.ShloMosaic Idealize.ShloMosaic.ValueIdx

namespace Cert.ReferenceIdeal.RefValue

open Cert.ReferenceIdeal Cert.ReferenceIdeal.Read Cert.Linear

/-- The left operand of the product at entry i, position k: x[i 0, k]. -/
theorem left_index (i : S4096x4096.Idx) (k : Fin 4096) : lidx_main_v1 i k = ix2 (i 0) k :=
  funext fun a => Fin.ext (by match a with | ⟨0, _⟩ => rfl | ⟨1, _⟩ => rfl)
/-- The right operand there is the transpose at (k, i 1), which is W[i 1, k]. -/
theorem right_index (i : S4096x4096.Idx) (k : Fin 4096) : idx_main_v0 (ridx_main_v1 i k) = ix2 (i 1) k :=
  funext fun a => Fin.ext (by match a with | ⟨0, _⟩ => rfl | ⟨1, _⟩ => rfl)
/-- The repeated row at entry i is b[i 1]. -/
theorem bias_index (i : S4096x4096.Idx) : idx_main_v2 (idx_main_v3 i) = ix1 (i 1) :=
  funext fun a => Fin.ext (by match a with | ⟨0, _⟩ => rfl)

/-- The reference's result, entry by entry, is `lin` of its three arguments. -/
theorem result_eq (x0 x1 : S4096x4096.Idx → EReal) (x2 : S4096.Idx → EReal) :
    val_main_v4 (F := Ideal) x0 x1 x2 = fun i : S4096x4096.Idx => lin x0 x1 x2 (i 0) (i 1) := by
  funext i
  rw [val_main_v4_apply, val_main_v1_apply, val_main_v3_apply, val_main_v2_apply]
  simp only [val_main_v0_apply, left_index, right_index, bias_index]
  rfl

end Cert.ReferenceIdeal.RefValue

end
-- ==== Proof.lean ====
/-
  A linear layer, out = x · Wᵀ + b over f32[4096, 4096], as a tiled matrix-unit kernel against the plain jnp expression.

  The kernel walks a 4 × 4 × 4 grid (row tile i, column tile j, contraction tile k, k innermost). It keeps a [1024, 1024]
  accumulator between grid points: at k = 0 it is reset to zero, at every point it gains the product of the point's
  x block with the transpose of the point's W block, and at k = 3 the accumulator plus the point's slice of b (as a row,
  repeated down the rows) is stored into the output block, which only then is written back. The reference transposes W,
  takes one whole matrix product and adds b repeated down the rows.

  On the extended reals both are, at entry (r, c), Σ_k x[r, k] · W[c, k] + b[c] (`Linear.lin`): narrowing the blocks to
  bf16 is the identity on exact values, the matrix unit into a zero accumulator and the host product are both plain sums,
  and the kernel's four partial sums over runs of 1024 contracted positions, added to zero in order, are the whole sum
  by associativity of + alone (`Linear.lin_blocks`) — so the finiteness of the inputs is never used. The idealization
  rewrote nothing, so the kernel's idealization is its own text read on the extended reals.

  Modules: Spec (the function and the law), Pieces (what each case of the body stores, as values), Payload (those values at
  an entry), Blocks (the windows' blocks as entries of the arguments), Fold (the accumulator after any point; the stored
  entry), Whole (the result array), Reference (the reference is the same function).
-/
import proofs.«159440_j21251498180726_2_alg».proof.Defs
import proofs.«159440_j21251498180726_2_alg».proof.Proof.Gen.Kernel
import proofs.«159440_j21251498180726_2_alg».proof.Proof.Gen.Kernel.Skeleton
import proofs.«159440_j21251498180726_2_alg».proof.Proof.Gen.Kernel.Launch
import proofs.«159440_j21251498180726_2_alg».proof.Proof.Gen.Kernel.Points
import proofs.«159440_j21251498180726_2_alg».proof.Proof.Gen.Kernel.Frame
import proofs.«159440_j21251498180726_2_alg».proof.Proof.Gen.KernelIdeal
import proofs.«159440_j21251498180726_2_alg».proof.Proof.Gen.KernelIdeal.Skeleton
import proofs.«159440_j21251498180726_2_alg».proof.Proof.Gen.KernelIdeal.Launch
import proofs.«159440_j21251498180726_2_alg».proof.Proof.Gen.KernelIdeal.Points
import proofs.«159440_j21251498180726_2_alg».proof.Proof.Gen.KernelIdeal.Frame
import proofs.«159440_j21251498180726_2_alg».proof.Proof.Gen.ReferenceIdeal
import proofs.«159440_j21251498180726_2_alg».proof.Proof.Gen.Pre_finite_inputs
import proofs.«159440_j21251498180726_2_alg».proof.Proof.Gen.KernelIdeal.Value
import proofs.«159440_j21251498180726_2_alg».proof.Proof.Gen.ReferenceIdeal.Run
import proofs.«159440_j21251498180726_2_alg».proof.Proof.Gen.ReferenceIdeal.Read
import proofs.«159440_j21251498180726_2_alg».proof.Proof.Whole
import proofs.«159440_j21251498180726_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to completion without a fault and leaves x, W and b as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its five operations run in order, writing only their own results. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Nothing of the kernel was rewritten for the extended reals. -/
theorem preserves : Cert.preserves_Kernel_KernelIdeal := trivial

/-- From arguments that agree, both programs end with the result array at x · Wᵀ + b of those arguments, entry by entry
    (`Linear.lin`): the kernel by `Whole.run`, the reference by its run read as `RefValue.result_eq`. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
